-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S2x1x1 : Shape := ⟨3, ![2, 1, 1]⟩
abbrev S2x1x512x512 : Shape := ⟨4, ![2, 1, 512, 512]⟩
abbrev S1x1x1 : Shape := ⟨3, ![1, 1, 1]⟩
abbrev S2x1x1x512 : Shape := ⟨4, ![2, 1, 1, 512]⟩
abbrev S2x1x510x512 : Shape := ⟨4, ![2, 1, 510, 512]⟩
abbrev S2x1x512x1 : Shape := ⟨4, ![2, 1, 512, 1]⟩
abbrev S2x1x512x510 : Shape := ⟨4, ![2, 1, 512, 510]⟩
abbrev S1x2x1x512x512 : Shape := ⟨5, ![1, 2, 1, 512, 512]⟩
abbrev S1 : Shape := ⟨1, ![1]⟩
abbrev S1x1x1x1x1 : Shape := ⟨5, ![1, 1, 1, 1, 1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S2x1x1, .f32⟩
  | .hbm, ⟨3, _⟩ => ⟨S1x1x1, .f32⟩
  | .hbm, ⟨4, _⟩ => ⟨S_, .f32⟩
  | .hbm, ⟨5, _⟩ => ⟨S1x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2x1x512x512, .f32⟩
  | .local _ .vmem, ⟨1, _⟩ => ⟨S2x1x512x512, .f32⟩
  | .local _ .vmem, ⟨2, _⟩ => ⟨S2x1x512x512, .f32⟩
  | .local _ .vmem, ⟨3, _⟩ => ⟨S2x1x512x512, .f32⟩
  | .local _ .vmem, ⟨4, _⟩ => ⟨S1x1x1, .f32⟩
  | .local _ .vmem, ⟨5, _⟩ => ⟨S1x1x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S2x1x512x512_S2x1x512x512_0_0_0_0 : ∀ a, (![0, 0, 0, 0] : Fin 4 → Nat) a + S2x1x512x512.size a ≤ S2x1x512x512.size a
  h_S2x1x512x512 : 0 < S2x1x512x512.numel
  slices_S2x1x512x512_o0_0_1_0_S2x1x1x512 : S2x1x512x512.Slices ![0, 0, 1, 0] S2x1x1x512
  slices_S2x1x512x512_o0_0_0_0_S2x1x1x512 : S2x1x512x512.Slices ![0, 0, 0, 0] S2x1x1x512
  slices_S2x1x512x512_o0_0_2_0_S2x1x510x512 : S2x1x512x512.Slices ![0, 0, 2, 0] S2x1x510x512
  slices_S2x1x512x512_o0_0_0_0_S2x1x510x512 : S2x1x512x512.Slices ![0, 0, 0, 0] S2x1x510x512
  slices_S2x1x512x512_o0_0_511_0_S2x1x1x512 : S2x1x512x512.Slices ![0, 0, 511, 0] S2x1x1x512
  slices_S2x1x512x512_o0_0_510_0_S2x1x1x512 : S2x1x512x512.Slices ![0, 0, 510, 0] S2x1x1x512
  concatenates_S2x1x1x512_S2x1x510x512_S2x1x1x512_S2x1x512x512_d2 : Shape.Concatenates [S2x1x1x512, S2x1x510x512, S2x1x1x512] S2x1x512x512 2
  slices_S2x1x512x512_o0_0_0_1_S2x1x512x1 : S2x1x512x512.Slices ![0, 0, 0, 1] S2x1x512x1
  slices_S2x1x512x512_o0_0_0_0_S2x1x512x1 : S2x1x512x512.Slices ![0, 0, 0, 0] S2x1x512x1
  slices_S2x1x512x512_o0_0_0_2_S2x1x512x510 : S2x1x512x512.Slices ![0, 0, 0, 2] S2x1x512x510
  slices_S2x1x512x512_o0_0_0_0_S2x1x512x510 : S2x1x512x512.Slices ![0, 0, 0, 0] S2x1x512x510
  slices_S2x1x512x512_o0_0_0_511_S2x1x512x1 : S2x1x512x512.Slices ![0, 0, 0, 511] S2x1x512x1
  slices_S2x1x512x512_o0_0_0_510_S2x1x512x1 : S2x1x512x512.Slices ![0, 0, 0, 510] S2x1x512x1
  concatenates_S2x1x512x1_S2x1x512x510_S2x1x512x1_S2x1x512x512_d3 : Shape.Concatenates [S2x1x512x1, S2x1x512x510, S2x1x512x1] S2x1x512x512 3
  shapeCasts_S2x1x512x512_S1x2x1x512x512 : S2x1x512x512.ShapeCasts S1x2x1x512x512
  reduces_S1x2x1x512x512_S1 : S1x2x1x512x512.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  shapeCasts_S1x1x1_S1x1x1 : S1x1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512x512.size a ≤ S64x1x512x512.size a
  hwx0_0 : ∀ i : grid0.Coords, EltTy.bits .f32 = 32 ∨ (Rect.block (s := S64x1x512x512) S2x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x512.size a ≤ S64x1x512x512.size a
  hwx0_1 : ∀ i : grid0.Coords, EltTy.bits .f32 = 32 ∨ (Rect.block (s := S64x1x512x512) S2x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S2x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S64x1x1x512 : Shape := ⟨4, ![64, 1, 1, 512]⟩
abbrev S64x1x510x512 : Shape := ⟨4, ![64, 1, 510, 512]⟩
abbrev S64x1x512x1 : Shape := ⟨4, ![64, 1, 512, 1]⟩
abbrev S64x1x512x510 : Shape := ⟨4, ![64, 1, 512, 510]⟩
abbrev S64x1x512x512x1 : Shape := ⟨5, ![64, 1, 512, 512, 1]⟩
abbrev S64x1x512x512x2 : Shape := ⟨5, ![64, 1, 512, 512, 2]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x1x1x512, .f32⟩
  | .hbm, ⟨3, _⟩ => ⟨S64x1x1x512, .f32⟩
  | .hbm, ⟨4, _⟩ => ⟨S64x1x1x512, .f32⟩
  | .hbm, ⟨5, _⟩ => ⟨S64x1x510x512, .f32⟩
  | .hbm, ⟨6, _⟩ => ⟨S64x1x510x512, .f32⟩
  | .hbm, ⟨7, _⟩ => ⟨S64x1x510x512, .f32⟩
  | .hbm, ⟨8, _⟩ => ⟨S64x1x1x512, .f32⟩
  | .hbm, ⟨9, _⟩ => ⟨S64x1x1x512, .f32⟩
  | .hbm, ⟨10, _⟩ => ⟨S64x1x1x512, .f32⟩
  | .hbm, ⟨11, _⟩ => ⟨S64x1x512x512, .f32⟩
  | .hbm, ⟨12, _⟩ => ⟨S64x1x512x1, .f32⟩
  | .hbm, ⟨13, _⟩ => ⟨S64x1x512x1, .f32⟩
  | .hbm, ⟨14, _⟩ => ⟨S64x1x512x1, .f32⟩
  | .hbm, ⟨15, _⟩ => ⟨S64x1x512x510, .f32⟩
  | .hbm, ⟨16, _⟩ => ⟨S64x1x512x510, .f32⟩
  | .hbm, ⟨17, _⟩ => ⟨S64x1x512x510, .f32⟩
  | .hbm, ⟨18, _⟩ => ⟨S64x1x512x1, .f32⟩
  | .hbm, ⟨19, _⟩ => ⟨S64x1x512x1, .f32⟩
  | .hbm, ⟨20, _⟩ => ⟨S64x1x512x1, .f32⟩
  | .hbm, ⟨21, _⟩ => ⟨S64x1x512x512, .f32⟩
  | .hbm, ⟨22, _⟩ => ⟨S64x1x512x512x1, .f32⟩
  | .hbm, ⟨23, _⟩ => ⟨S64x1x512x512x1, .f32⟩
  | .hbm, ⟨24, _⟩ => ⟨S64x1x512x512x2, .f32⟩
  | .hbm, ⟨25, _⟩ => ⟨S64x1x512x512x2, .f32⟩
  | .hbm, ⟨26, _⟩ => ⟨S_, .f32⟩
  | .hbm, ⟨27, _⟩ => ⟨S64x1x512x512, .f32⟩
  | .hbm, ⟨28, _⟩ => ⟨S64x1x512x512x1, .f32⟩
  | .hbm, ⟨29, _⟩ => ⟨S_, .f32⟩
  | .hbm, ⟨30, _⟩ => ⟨S64x1x512x512x1, .f32⟩
  | .hbm, ⟨31, _⟩ => ⟨S64x1x512x512x1, .f32⟩
  | .hbm, ⟨32, _⟩ => ⟨S64x1x512x512x1, .f32⟩
  | .hbm, ⟨33, _⟩ => ⟨S64x1x512x512x2, .f32⟩
  | .hbm, ⟨34, _⟩ => ⟨S64x1x512x512x2, .f32⟩
  | .hbm, ⟨35, _⟩ => ⟨S64x1x1x512, .f32⟩
  | .hbm, ⟨36, _⟩ => ⟨S64x1x1x512, .f32⟩
  | .hbm, ⟨37, _⟩ => ⟨S64x1x1x512, .f32⟩
  | .hbm, ⟨38, _⟩ => ⟨S64x1x510x512, .f32⟩
  | .hbm, ⟨39, _⟩ => ⟨S64x1x510x512, .f32⟩
  | .hbm, ⟨40, _⟩ => ⟨S64x1x510x512, .f32⟩
  | .hbm, ⟨41, _⟩ => ⟨S64x1x1x512, .f32⟩
  | .hbm, ⟨42, _⟩ => ⟨S64x1x1x512, .f32⟩
  | .hbm, ⟨43, _⟩ => ⟨S64x1x1x512, .f32⟩
  | .hbm, ⟨44, _⟩ => ⟨S64x1x512x512, .f32⟩
  | .hbm, ⟨45, _⟩ => ⟨S64x1x512x1, .f32⟩
  | .hbm, ⟨46, _⟩ => ⟨S64x1x512x1, .f32⟩
  | .hbm, ⟨47, _⟩ => ⟨S64x1x512x1, .f32⟩
  | .hbm, ⟨48, _⟩ => ⟨S64x1x512x510, .f32⟩
  | .hbm, ⟨49, _⟩ => ⟨S64x1x512x510, .f32⟩
  | .hbm, ⟨50, _⟩ => ⟨S64x1x512x510, .f32⟩
  | .hbm, ⟨51, _⟩ => ⟨S64x1x512x1, .f32⟩
  | .hbm, ⟨52, _⟩ => ⟨S64x1x512x1, .f32⟩
  | .hbm, ⟨53, _⟩ => ⟨S64x1x512x1, .f32⟩
  | .hbm, ⟨54, _⟩ => ⟨S64x1x512x512, .f32⟩
  | .hbm, ⟨55, _⟩ => ⟨S64x1x512x512x1, .f32⟩
  | .hbm, ⟨56, _⟩ => ⟨S64x1x512x512x1, .f32⟩
  | .hbm, ⟨57, _⟩ => ⟨S64x1x512x512x2, .f32⟩
  | .hbm, ⟨58, _⟩ => ⟨S64x1x512x512x2, .f32⟩
  | .hbm, ⟨59, _⟩ => ⟨S_, .f32⟩
  | .hbm, ⟨60, _⟩ => ⟨S64x1x512x512, .f32⟩
  | .hbm, ⟨61, _⟩ => ⟨S64x1x512x512x1, .f32⟩
  | .hbm, ⟨62, _⟩ => ⟨S_, .f32⟩
  | .hbm, ⟨63, _⟩ => ⟨S64x1x512x512x1, .f32⟩
  | .hbm, ⟨64, _⟩ => ⟨S64x1x512x512x1, .f32⟩
  | .hbm, ⟨65, _⟩ => ⟨S64x1x512x512x1, .f32⟩
  | .hbm, ⟨66, _⟩ => ⟨S64x1x512x512x2, .f32⟩
  | .hbm, ⟨67, _⟩ => ⟨S64x1x512x512x2, .f32⟩
  | .hbm, ⟨68, _⟩ => ⟨S64x1x512x512x2, .f32⟩
  | .hbm, ⟨69, _⟩ => ⟨S_, .f32⟩
  | .hbm, ⟨70, _⟩ => ⟨S64x1x512x512, .f32⟩
  | .hbm, ⟨71, _⟩ => ⟨S64x1x512x512, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_cst : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_cst_1 : Ref sig .tc := ⟨.hbm, 59, rfl⟩
abbrev main_v55 : Ref sig .tc := ⟨.hbm, 60, rfl⟩
abbrev main_v56 : Ref sig .tc := ⟨.hbm, 61, rfl⟩
abbrev main_cst_2 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_cst_3 : Ref sig .tc := ⟨.hbm, 69, rfl⟩
abbrev main_v63 : Ref sig .tc := ⟨.hbm, 70, rfl⟩
abbrev main_v64 : Ref sig .tc := ⟨.hbm, 71, rfl⟩
abbrev main_cst_4 : Ref sig .tc := ⟨.hbm, 72, rfl⟩
abbrev main_v65 : Ref sig .tc := ⟨.hbm, 73, rfl⟩
abbrev main_cst_5 : Ref sig .tc := ⟨.hbm, 74, rfl⟩
abbrev main_v66 : Ref sig .tc := ⟨.hbm, 75, rfl⟩
abbrev main_cst_6 : Ref sig .tc := ⟨.hbm, 76, rfl⟩
abbrev main_v67 : Ref sig .tc := ⟨.hbm, 77, rfl⟩

abbrev nD : Nat := 1
abbrev τ : Topo := Topo.v7x

variable {F : FTy → Type} [FloatOps F]

class Facts₀ : Prop where
  slices_S64x1x512x512_S64x1x1x512_0_0_1_0 : S64x1x512x512.Slices ![0, 0, 1, 0] S64x1x1x512
  slices_S64x1x512x512_S64x1x1x512_0_0_0_0 : S64x1x512x512.Slices ![0, 0, 0, 0] S64x1x1x512
  slices_S64x1x512x512_S64x1x510x512_0_0_2_0 : S64x1x512x512.Slices ![0, 0, 2, 0] S64x1x510x512
  slices_S64x1x512x512_S64x1x510x512_0_0_0_0 : S64x1x512x512.Slices ![0, 0, 0, 0] S64x1x510x512
  slices_S64x1x512x512_S64x1x1x512_0_0_511_0 : S64x1x512x512.Slices ![0, 0, 511, 0] S64x1x1x512
  slices_S64x1x512x512_S64x1x1x512_0_0_510_0 : S64x1x512x512.Slices ![0, 0, 510, 0] S64x1x1x512
  concatenates_S64x1x1x512_S64x1x510x512_S64x1x1x512_S64x1x512x512_d2 : Shape.Concatenates [S64x1x1x512, S64x1x510x512, S64x1x1x512] S64x1x512x512 2
  slices_S64x1x512x512_S64x1x512x1_0_0_0_1 : S64x1x512x512.Slices ![0, 0, 0, 1] S64x1x512x1
  slices_S64x1x512x512_S64x1x512x1_0_0_0_0 : S64x1x512x512.Slices ![0, 0, 0, 0] S64x1x512x1
  slices_S64x1x512x512_S64x1x512x510_0_0_0_2 : S64x1x512x512.Slices ![0, 0, 0, 2] S64x1x512x510
  slices_S64x1x512x512_S64x1x512x510_0_0_0_0 : S64x1x512x512.Slices ![0, 0, 0, 0] S64x1x512x510
  slices_S64x1x512x512_S64x1x512x1_0_0_0_511 : S64x1x512x512.Slices ![0, 0, 0, 511] S64x1x512x1
  slices_S64x1x512x512_S64x1x512x1_0_0_0_510 : S64x1x512x512.Slices ![0, 0, 0, 510] S64x1x512x1
  concatenates_S64x1x512x1_S64x1x512x510_S64x1x512x1_S64x1x512x512_d3 : Shape.Concatenates [S64x1x512x1, S64x1x512x510, S64x1x512x1] S64x1x512x512 3
  bcast_S64x1x512x512_S64x1x512x512x1_0_1_2_3 : S64x1x512x512.BroadcastsInDim S64x1x512x512x1 (![0, 1, 2, 3] : Fin 4 → Fin S64x1x512x512x1.rank)
  concatenates_S64x1x512x512x1_S64x1x512x512x1_S64x1x512x512x2_d4 : Shape.Concatenates [S64x1x512x512x1, S64x1x512x512x1] S64x1x512x512x2 4
  reducesTo_S64x1x512x512x2_S64x1x512x512_d4 : S64x1x512x512x2.ReducesTo [4] S64x1x512x512
  h_S_ : 0 < S_.numel
  bcast_S_S64x1x512x512x1 : S_.BroadcastsInDim S64x1x512x512x1 (![] : Fin 0 → Fin S64x1x512x512x1.rank)
  bcast_S64x1x512x512x1_S64x1x512x512x2_0_1_2_3_4 : S64x1x512x512x1.BroadcastsInDim S64x1x512x512x2 (![0, 1, 2, 3, 4] : Fin 5 → Fin S64x1x512x512x2.rank)
  reducesTo_S64x1x512x512_S_d0_1_2_3 : S64x1x512x512.ReducesTo [0, 1, 2, 3] S_

variable [Facts₀]

class Facts : Prop extends Facts₀ where

variable [Facts]
-- ==== Proof.KernelCases.lean ====
import proofs.«170546_j40200893891260_2_alg».proof.Proof.Gen.KernelIdeal.Frame
import Idealize.ShloMosaic.Lib.Pipeline.Value
import Idealize.ShloMosaic.Lib.Tactic

/-! What one run of the kernel body leaves in the one-element output block, in each of its two control cases: the
    accumulation payload of the two input blocks, over the zero block where the step is a core's first, over the running
    value otherwise. Both hold for any float instance. -/

noncomputable section

open Idealize.ShloMosaic Idealize.ShloMosaic.TcCoe Idealize.SL.Sem
open Idealize.ShloMosaic.Pipeline (Dat)

namespace Cert.KernelIdeal.NGFCases

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a point that does not start a core's run of steps, the body leaves in the output block, which held `xo`, the
    accumulation payload of the two input blocks over `xo`. -/
theorem out_B (c : Dev nD) (i : grid0.Coords) (a2 : Memref sig .tc .vmem S2x1x512x512 .f32) (h2 : a2.IsWhole)
    (a3 : Memref sig .tc .vmem S2x1x512x512 .f32) (h3 : a3.IsWhole) (a4 : Memref sig .tc .vmem S1x1x1 .f32) (h4 : a4.IsWhole)
    (hc : ¬cond0_0 i) (x0 x1 : Vec F S2x1x512x512 .f32) (xo : Vec F S1x1x1 .f32) :
    out0_B_2 c i a2 h2 a3 h3 a4 h4 hc x0 x1 xo
      = k0_pay1 (k0_pay3 x0) (k0_pay4 x0) (k0_pay5 x1) (k0_pay6 x1) (k0_pay7 x0) (k0_pay8 x0) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S2x1x512x512) hz4,
    View.ld_unit_zero (S := S1x1x1) hz3]

/-- At a point that starts a core's run of steps, the body first stores the zero block and then accumulates over it. -/
theorem out_A (c : Dev nD) (i : grid0.Coords) (a2 : Memref sig .tc .vmem S2x1x512x512 .f32) (h2 : a2.IsWhole)
    (a3 : Memref sig .tc .vmem S2x1x512x512 .f32) (h3 : a3.IsWhole) (a4 : Memref sig .tc .vmem S1x1x1 .f32) (h4 : a4.IsWhole)
    (hc : cond0_0 i) (x0 x1 : Vec F S2x1x512x512 .f32) :
    out0_A_2 c i a2 h2 a3 h3 a4 h4 hc x0 x1
      = k0_pay1 (k0_pay3 x0) (k0_pay4 x0) (k0_pay5 x1) (k0_pay6 x1) (k0_pay7 x0) (k0_pay8 x0) (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S2x1x512x512) hz4]

end Cert.KernelIdeal.NGFCases
end
-- ==== Proof.Grad.lean ====
import Idealize.ShloMosaic.PureOps.Ideal
import Idealize.ShloMosaic.Lib.Pipeline.Value

/-! The finite-difference gradients read at an index.

Both programs build the gradient of an image stack `x : [N, 1, 512, 512]` along the rows (axis 2) as three pieces laid
end to end: the one-sided difference `x[1] - x[0]` on the first row, the central differences `x[h+1] - x[h-1]` on the
510 rows in between, the one-sided difference `x[511] - x[510]` on the last row; and along the columns (axis 3) the
same way. Read at one index, each is ONE difference `x (up j) - x (down j)`: `up` moves the coordinate one step up,
stopping at 511, `down` one step down, stopping at 0. The statement is for any batch extent `N`, so that it serves
the kernel's blocks (`N = 2`) and the reference's whole array (`N = 64`) alike. -/

noncomputable section

namespace Cert.NGF

open Idealize.ShloMosaic

/-- The image stack's shape, and the shapes of its row pieces and column pieces. -/
abbrev Sh (N : Nat) : Shape := ⟨4, ![N, 1, 512, 512]⟩
abbrev ShH (N k : Nat) : Shape := ⟨4, ![N, 1, k, 512]⟩
abbrev ShW (N k : Nat) : Shape := ⟨4, ![N, 1, 512, k]⟩

variable {N : Nat}

/-- One row up, stopping at the last row; one row down, stopping at the first. -/
def upH (j : (Sh N).Idx) : (Sh N).Idx := fun a => match a with
  | ⟨0, _⟩ => ⟨(j 0).val, (j 0).isLt⟩
  | ⟨1, _⟩ => ⟨(j 1).val, (j 1).isLt⟩
  | ⟨2, _⟩ => ⟨min ((j 2).val + 1) 511, by show min ((j 2).val + 1) 511 < 512; omega⟩
  | ⟨3, _⟩ => ⟨(j 3).val, (j 3).isLt⟩
def dnH (j : (Sh N).Idx) : (Sh N).Idx := fun a => match a with
  | ⟨0, _⟩ => ⟨(j 0).val, (j 0).isLt⟩
  | ⟨1, _⟩ => ⟨(j 1).val, (j 1).isLt⟩
  | ⟨2, _⟩ => ⟨(j 2).val - 1, by have h2 : (j 2).val < 512 := (j 2).isLt; show (j 2).val - 1 < 512; omega⟩
  | ⟨3, _⟩ => ⟨(j 3).val, (j 3).isLt⟩
/-- One column up, stopping at the last column; one column down, stopping at the first. -/
def upW (j : (Sh N).Idx) : (Sh N).Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨min ((j 3).val + 1) 511, by show min ((j 3).val + 1) 511 < 512; omega⟩
def dnW (j : (Sh N).Idx) : (Sh N).Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val - 1, by have h3 : (j 3).val < 512 := (j 3).isLt; show (j 3).val - 1 < 512; omega⟩

/-- The two gradients of an image stack, index by index. -/
def gH (x : (Sh N).Idx → EReal) (j : (Sh N).Idx) : EReal := x (upH j) - x (dnH j)
def gW (x : (Sh N).Idx → EReal) (j : (Sh N).Idx) : EReal := x (upW j) - x (dnW j)

/-- A piece's index with the coordinates of `j` off axis 2 and `r` on it. -/
def rowIdx {k : Nat} (j : (Sh N).Idx) (r : Fin k) : (ShH N k).Idx := fun a => match a with
  | ⟨0, _⟩ => ⟨(j 0).val, (j 0).isLt⟩
  | ⟨1, _⟩ => ⟨(j 1).val, (j 1).isLt⟩
  | ⟨2, _⟩ => ⟨r.val, r.isLt⟩
  | ⟨3, _⟩ => ⟨(j 3).val, (j 3).isLt⟩
/-- A piece's index with the coordinates of `j` off axis 3 and `r` on it. -/
def colIdx {k : Nat} (j : (Sh N).Idx) (r : Fin k) : (ShW N k).Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨r.val, r.isLt⟩

section pieces
variable {α : Type}

/-- Three pieces of 1, 510 and 1 rows joined along axis 2, read at an index: the piece whose rows hold the index's row
    (`pre` rows before it), at row `r` of the piece. -/
theorem concatH_apply (p0 : (ShH N 1).Idx → α) (p1 : (ShH N 510).Idx → α) (p2 : (ShH N 1).Idx → α)
    (hc : Shape.Concatenates [ShH N 1, ShH N 510, ShH N 1] (Sh N) 2) (j : (Sh N).Idx) :
    concatenate (Sh N) 2 [⟨ShH N 1, p0⟩, ⟨ShH N 510, p1⟩, ⟨ShH N 1, p2⟩] hc j
      = if h0 : (j 2).val = 0 then p0 (rowIdx j ⟨0, by omega⟩)
        else if h1 : (j 2).val = 511 then p2 (rowIdx j ⟨0, by omega⟩)
        else p1 (rowIdx j ⟨(j 2).val - 1, by have h2 : (j 2).val < 512 := (j 2).isLt; omega⟩) := by
  have h2 : (j 2).val < 512 := (j 2).isLt
  split
  · next hA =>
    exact concatenate_apply_piece (t := Sh N) 2 [⟨ShH N 1, p0⟩, ⟨ShH N 510, p1⟩, ⟨ShH N 1, p2⟩] hc j 0 (by show (0 : Nat) < 3; omega) (ShH N 1) p0 rfl rfl 0 rfl _
      (fun b hb => match b with
        | ⟨0, _⟩ => rfl
        | ⟨1, _⟩ => rfl
        | ⟨2, _⟩ => absurd rfl hb
        | ⟨3, _⟩ => rfl)
      (by show 0 + 0 = (j 2).val; omega)
  · next hA =>
    split
    · next hB =>
      exact concatenate_apply_piece (t := Sh N) 2 [⟨ShH N 1, p0⟩, ⟨ShH N 510, p1⟩, ⟨ShH N 1, p2⟩] hc j 2 (by show (2 : Nat) < 3; omega) (ShH N 1) p2 rfl rfl 511 rfl _
        (fun b hb => match b with
          | ⟨0, _⟩ => rfl
          | ⟨1, _⟩ => rfl
          | ⟨2, _⟩ => absurd rfl hb
          | ⟨3, _⟩ => rfl)
        (by show 511 + 0 = (j 2).val; omega)
    · next hB =>
      exact concatenate_apply_piece (t := Sh N) 2 [⟨ShH N 1, p0⟩, ⟨ShH N 510, p1⟩, ⟨ShH N 1, p2⟩] hc j 1 (by show (1 : Nat) < 3; omega) (ShH N 510) p1 rfl rfl 1 rfl _
        (fun b hb => match b with
          | ⟨0, _⟩ => rfl
          | ⟨1, _⟩ => rfl
          | ⟨2, _⟩ => absurd rfl hb
          | ⟨3, _⟩ => rfl)
        (by show 1 + ((j 2).val - 1) = (j 2).val; omega)

/-- The same along axis 3. -/
theorem concatW_apply (p0 : (ShW N 1).Idx → α) (p1 : (ShW N 510).Idx → α) (p2 : (ShW N 1).Idx → α)
    (hc : Shape.Concatenates [ShW N 1, ShW N 510, ShW N 1] (Sh N) 3) (j : (Sh N).Idx) :
    concatenate (Sh N) 3 [⟨ShW N 1, p0⟩, ⟨ShW N 510, p1⟩, ⟨ShW N 1, p2⟩] hc j
      = if h0 : (j 3).val = 0 then p0 (colIdx j ⟨0, by omega⟩)
        else if h1 : (j 3).val = 511 then p2 (colIdx j ⟨0, by omega⟩)
        else p1 (colIdx j ⟨(j 3).val - 1, by have h3 : (j 3).val < 512 := (j 3).isLt; omega⟩) := by
  have h3 : (j 3).val < 512 := (j 3).isLt
  split
  · next hA =>
    exact concatenate_apply_piece (t := Sh N) 3 [⟨ShW N 1, p0⟩, ⟨ShW N 510, p1⟩, ⟨ShW N 1, p2⟩] hc j 0 (by show (0 : Nat) < 3; omega) (ShW N 1) p0 rfl rfl 0 rfl _
      (fun b hb => match b with
        | ⟨0, _⟩ => rfl
        | ⟨1, _⟩ => rfl
        | ⟨2, _⟩ => rfl
        | ⟨3, _⟩ => absurd rfl hb)
      (by show 0 + 0 = (j 3).val; omega)
  · next hA =>
    split
    · next hB =>
      exact concatenate_apply_piece (t := Sh N) 3 [⟨ShW N 1, p0⟩, ⟨ShW N 510, p1⟩, ⟨ShW N 1, p2⟩] hc j 2 (by show (2 : Nat) < 3; omega) (ShW N 1) p2 rfl rfl 511 rfl _
        (fun b hb => match b with
          | ⟨0, _⟩ => rfl
          | ⟨1, _⟩ => rfl
          | ⟨2, _⟩ => rfl
          | ⟨3, _⟩ => absurd rfl hb)
        (by show 511 + 0 = (j 3).val; omega)
    · next hB =>
      exact concatenate_apply_piece (t := Sh N) 3 [⟨ShW N 1, p0⟩, ⟨ShW N 510, p1⟩, ⟨ShW N 1, p2⟩] hc j 1 (by show (1 : Nat) < 3; omega) (ShW N 510) p1 rfl rfl 1 rfl _
        (fun b hb => match b with
          | ⟨0, _⟩ => rfl
          | ⟨1, _⟩ => rfl
          | ⟨2, _⟩ => rfl
          | ⟨3, _⟩ => absurd rfl hb)
        (by show 1 + ((j 3).val - 1) = (j 3).val; omega)

end pieces

/-- A difference of two row slices of `x`, offsets `o1` and `o0` on axis 2, read at row `r` of the piece: the difference
    of `x` at the two shifted rows. -/
theorem subSliceH_apply {k : Nat} (x : FVec Ideal (Sh N) .f32) (o1 o0 : Nat)
    (s1 : (Sh N).Slices ![0, 0, o1, 0] (ShH N k)) (s0 : (Sh N).Slices ![0, 0, o0, 0] (ShH N k)) (j : (Sh N).Idx) (r : Fin k)
    (u d : (Sh N).Idx) (hu : ∀ a, (u a).val = if a.val = 2 then o1 + r.val else (j a).val)
    (hd : ∀ a, (d a).val = if a.val = 2 then o0 + r.val else (j a).val) :
    subf (extractStridedSlice (ShH N k) ![0, 0, o1, 0] x s1) (extractStridedSlice (ShH N k) ![0, 0, o0, 0] x s0) (rowIdx j r)
      = x u - x d := by
  show FloatOps.subf (extractStridedSlice (ShH N k) ![0, 0, o1, 0] x s1 (rowIdx j r)) (extractStridedSlice (ShH N k) ![0, 0, o0, 0] x s0 (rowIdx j r)) = _
  rw [extractStridedSlice_apply _ x s1 (rowIdx j r) u (fun a => match a with
      | ⟨0, _⟩ => by have := hu 0; simp at this; show (u 0).val = 0 + (j 0).val; omega
      | ⟨1, _⟩ => by have := hu 1; simp at this; show (u 1).val = 0 + (j 1).val; omega
      | ⟨2, _⟩ => by have := hu 2; simp at this; show (u 2).val = o1 + r.val; omega
      | ⟨3, _⟩ => by have := hu 3; simp at this; show (u 3).val = 0 + (j 3).val; omega),
    extractStridedSlice_apply _ x s0 (rowIdx j r) d (fun a => match a with
      | ⟨0, _⟩ => by have := hd 0; simp at this; show (d 0).val = 0 + (j 0).val; omega
      | ⟨1, _⟩ => by have := hd 1; simp at this; show (d 1).val = 0 + (j 1).val; omega
      | ⟨2, _⟩ => by have := hd 2; simp at this; show (d 2).val = o0 + r.val; omega
      | ⟨3, _⟩ => by have := hd 3; simp at this; show (d 3).val = 0 + (j 3).val; omega)]
  rfl

/-- The same for column slices. -/
theorem subSliceW_apply {k : Nat} (x : FVec Ideal (Sh N) .f32) (o1 o0 : Nat)
    (s1 : (Sh N).Slices ![0, 0, 0, o1] (ShW N k)) (s0 : (Sh N).Slices ![0, 0, 0, o0] (ShW N k)) (j : (Sh N).Idx) (r : Fin k)
    (u d : (Sh N).Idx) (hu : ∀ a, (u a).val = if a.val = 3 then o1 + r.val else (j a).val)
    (hd : ∀ a, (d a).val = if a.val = 3 then o0 + r.val else (j a).val) :
    subf (extractStridedSlice (ShW N k) ![0, 0, 0, o1] x s1) (extractStridedSlice (ShW N k) ![0, 0, 0, o0] x s0) (colIdx j r)
      = x u - x d := by
  show FloatOps.subf (extractStridedSlice (ShW N k) ![0, 0, 0, o1] x s1 (colIdx j r)) (extractStridedSlice (ShW N k) ![0, 0, 0, o0] x s0 (colIdx j r)) = _
  rw [extractStridedSlice_apply _ x s1 (colIdx j r) u (fun a => match a with
      | ⟨0, _⟩ => by have := hu 0; simp at this; show (u 0).val = 0 + (j 0).val; omega
      | ⟨1, _⟩ => by have := hu 1; simp at this; show (u 1).val = 0 + (j 1).val; omega
      | ⟨2, _⟩ => by have := hu 2; simp at this; show (u 2).val = 0 + (j 2).val; omega
      | ⟨3, _⟩ => by have := hu 3; simp at this; show (u 3).val = o1 + r.val; omega),
    extractStridedSlice_apply _ x s0 (colIdx j r) d (fun a => match a with
      | ⟨0, _⟩ => by have := hd 0; simp at this; show (d 0).val = 0 + (j 0).val; omega
      | ⟨1, _⟩ => by have := hd 1; simp at this; show (d 1).val = 0 + (j 1).val; omega
      | ⟨2, _⟩ => by have := hd 2; simp at this; show (d 2).val = 0 + (j 2).val; omega
      | ⟨3, _⟩ => by have := hd 3; simp at this; show (d 3).val = o0 + r.val; omega)]
  rfl

/-- The row gradient as the programs build it — three pieces joined along axis 2 — is `gH`. -/
theorem gradH_apply (x : FVec Ideal (Sh N) .f32)
    (s1 : (Sh N).Slices ![0, 0, 1, 0] (ShH N 1)) (s0 : (Sh N).Slices ![0, 0, 0, 0] (ShH N 1))
    (m2 : (Sh N).Slices ![0, 0, 2, 0] (ShH N 510)) (m0 : (Sh N).Slices ![0, 0, 0, 0] (ShH N 510))
    (e1 : (Sh N).Slices ![0, 0, 511, 0] (ShH N 1)) (e0 : (Sh N).Slices ![0, 0, 510, 0] (ShH N 1))
    (hc : Shape.Concatenates [ShH N 1, ShH N 510, ShH N 1] (Sh N) 2) (j : (Sh N).Idx) :
    concatenate (Sh N) 2
      [⟨ShH N 1, subf (extractStridedSlice (ShH N 1) ![0, 0, 1, 0] x s1) (extractStridedSlice (ShH N 1) ![0, 0, 0, 0] x s0)⟩,
       ⟨ShH N 510, subf (extractStridedSlice (ShH N 510) ![0, 0, 2, 0] x m2) (extractStridedSlice (ShH N 510) ![0, 0, 0, 0] x m0)⟩,
       ⟨ShH N 1, subf (extractStridedSlice (ShH N 1) ![0, 0, 511, 0] x e1) (extractStridedSlice (ShH N 1) ![0, 0, 510, 0] x e0)⟩] hc j
      = gH x j := by
  have h2 : (j 2).val < 512 := (j 2).isLt
  rw [concatH_apply]
  unfold gH
  have hu : ∀ (o r : Nat), min ((j 2).val + 1) 511 = o + r → ∀ a : Fin 4, ((upH j) a).val = if a.val = 2 then o + r else (j a).val :=
    fun o r h a => match a with
      | ⟨0, _⟩ => rfl
      | ⟨1, _⟩ => rfl
      | ⟨2, _⟩ => h
      | ⟨3, _⟩ => rfl
  have hd : ∀ (o r : Nat), (j 2).val - 1 = o + r → ∀ a : Fin 4, ((dnH j) a).val = if a.val = 2 then o + r else (j a).val :=
    fun o r h a => match a with
      | ⟨0, _⟩ => rfl
      | ⟨1, _⟩ => rfl
      | ⟨2, _⟩ => h
      | ⟨3, _⟩ => rfl
  split
  · next hA => exact subSliceH_apply x 1 0 s1 s0 j _ _ _ (hu 1 0 (by omega)) (hd 0 0 (by omega))
  · next hA =>
    split
    · next hB => exact subSliceH_apply x 511 510 e1 e0 j _ _ _ (hu 511 0 (by omega)) (hd 510 0 (by omega))
    · next hB => exact subSliceH_apply x 2 0 m2 m0 j _ _ _ (hu 2 ((j 2).val - 1) (by omega)) (hd 0 ((j 2).val - 1) (by omega))

/-- The column gradient as the programs build it — three pieces joined along axis 3 — is `gW`. -/
theorem gradW_apply (x : FVec Ideal (Sh N) .f32)
    (s1 : (Sh N).Slices ![0, 0, 0, 1] (ShW N 1)) (s0 : (Sh N).Slices ![0, 0, 0, 0] (ShW N 1))
    (m2 : (Sh N).Slices ![0, 0, 0, 2] (ShW N 510)) (m0 : (Sh N).Slices ![0, 0, 0, 0] (ShW N 510))
    (e1 : (Sh N).Slices ![0, 0, 0, 511] (ShW N 1)) (e0 : (Sh N).Slices ![0, 0, 0, 510] (ShW N 1))
    (hc : Shape.Concatenates [ShW N 1, ShW N 510, ShW N 1] (Sh N) 3) (j : (Sh N).Idx) :
    concatenate (Sh N) 3
      [⟨ShW N 1, subf (extractStridedSlice (ShW N 1) ![0, 0, 0, 1] x s1) (extractStridedSlice (ShW N 1) ![0, 0, 0, 0] x s0)⟩,
       ⟨ShW N 510, subf (extractStridedSlice (ShW N 510) ![0, 0, 0, 2] x m2) (extractStridedSlice (ShW N 510) ![0, 0, 0, 0] x m0)⟩,
       ⟨ShW N 1, subf (extractStridedSlice (ShW N 1) ![0, 0, 0, 511] x e1) (extractStridedSlice (ShW N 1) ![0, 0, 0, 510] x e0)⟩] hc j
      = gW x j := by
  have h3 : (j 3).val < 512 := (j 3).isLt
  rw [concatW_apply]
  unfold gW
  have hu : ∀ (o r : Nat), min ((j 3).val + 1) 511 = o + r → ∀ a : Fin 4, ((upW j) a).val = if a.val = 3 then o + r else (j a).val :=
    fun o r h a => match a with
      | ⟨0, _⟩ => rfl
      | ⟨1, _⟩ => rfl
      | ⟨2, _⟩ => rfl
      | ⟨3, _⟩ => h
  have hd : ∀ (o r : Nat), (j 3).val - 1 = o + r → ∀ a : Fin 4, ((dnW j) a).val = if a.val = 3 then o + r else (j a).val :=
    fun o r h a => match a with
      | ⟨0, _⟩ => rfl
      | ⟨1, _⟩ => rfl
      | ⟨2, _⟩ => rfl
      | ⟨3, _⟩ => h
  split
  · next hA => exact subSliceW_apply x 1 0 s1 s0 j _ _ _ (hu 1 0 (by omega)) (hd 0 0 (by omega))
  · next hA =>
    split
    · next hB => exact subSliceW_apply x 511 510 e1 e0 j _ _ _ (hu 511 0 (by omega)) (hd 510 0 (by omega))
    · next hB => exact subSliceW_apply x 2 0 m2 m0 j _ _ _ (hu 2 ((j 3).val - 1) (by omega)) (hd 0 ((j 3).val - 1) (by omega))

end Cert.NGF

end
-- ==== Proof.PixelLaw.lean ====
import Idealize.ShloMosaic.PureOps.Ideal
import Idealize.ShloMosaic.PureOps.Ideal.Laws

/-! The per-pixel identity.

For two plane gradients `(a, b)` and `(c, d)` and a positive `e`, the squared cosine computed with ONE quotient,
`(a c + b d)² / ((a² + b² + e)(c² + d² + e))`, is the square of the dot product of the two vectors each divided by its
own regularized norm `√(a² + b² + e)`, `√(c² + d² + e)`: the norms are positive, and a positive real is the square of
its square root. Both sides are stated on the extended reals, in the order of operations the two programs use, and
proved at finite arguments. -/

noncomputable section

namespace Cert.NGF

open Idealize.ShloMosaic

/-- The single-quotient form: numerator `(ac + bd)²`, denominator the product of the two regularized squared norms. -/
def qK (a b c d e : EReal) : EReal :=
  Ideal.div ((a * c + b * d) * (a * c + b * d)) ((a * a + b * b + e) * (c * c + d * d + e))

/-- The normalized form: each vector divided by the square root of its regularized squared norm (a sum started from
    `z`), the dot product of the two unit-ish vectors (again a sum started from `z`), squared. -/
def qR (z a b c d e : EReal) : EReal :=
  (z + (Ideal.div a (Ideal.sqrt (z + (a * a + b * b) + e)) * Ideal.div c (Ideal.sqrt (z + (c * c + d * d) + e))
      + Ideal.div b (Ideal.sqrt (z + (a * a + b * b) + e)) * Ideal.div d (Ideal.sqrt (z + (c * c + d * d) + e))))
  * (z + (Ideal.div a (Ideal.sqrt (z + (a * a + b * b) + e)) * Ideal.div c (Ideal.sqrt (z + (c * c + d * d) + e))
      + Ideal.div b (Ideal.sqrt (z + (a * a + b * b) + e)) * Ideal.div d (Ideal.sqrt (z + (c * c + d * d) + e))))

/-- The identity over the reals. -/
theorem real_law (a b c d e : ℝ) (he : 0 < e) :
    ((a * c + b * d) * (a * c + b * d)) * (1 / ((a * a + b * b + e) * (c * c + d * d + e)))
      = (0 + (a * (1 / Real.sqrt (0 + (a * a + b * b) + e)) * (c * (1 / Real.sqrt (0 + (c * c + d * d) + e)))
          + b * (1 / Real.sqrt (0 + (a * a + b * b) + e)) * (d * (1 / Real.sqrt (0 + (c * c + d * d) + e)))))
        * (0 + (a * (1 / Real.sqrt (0 + (a * a + b * b) + e)) * (c * (1 / Real.sqrt (0 + (c * c + d * d) + e)))
          + b * (1 / Real.sqrt (0 + (a * a + b * b) + e)) * (d * (1 / Real.sqrt (0 + (c * c + d * d) + e))))) := by
  have hA : 0 < a * a + b * b + e := by nlinarith [mul_self_nonneg a, mul_self_nonneg b]
  have hC : 0 < c * c + d * d + e := by nlinarith [mul_self_nonneg c, mul_self_nonneg d]
  have hsA : 0 < Real.sqrt (a * a + b * b + e) := Real.sqrt_pos.mpr hA
  have hsC : 0 < Real.sqrt (c * c + d * d + e) := Real.sqrt_pos.mpr hC
  have eA : Real.sqrt (a * a + b * b + e) * Real.sqrt (a * a + b * b + e) = a * a + b * b + e := Real.mul_self_sqrt hA.le
  have eC : Real.sqrt (c * c + d * d + e) * Real.sqrt (c * c + d * d + e) = c * c + d * d + e := Real.mul_self_sqrt hC.le
  simp only [zero_add]
  set p := Real.sqrt (a * a + b * b + e) with hp
  set q := Real.sqrt (c * c + d * d + e) with hq
  rw [← eA, ← eC]
  field_simp

/-- At finite arguments with a positive `e` the two forms are the same extended real. -/
theorem qK_eq_qR (a b c d e : ℝ) (he : 0 < e) :
    qK (a : EReal) (b : EReal) (c : EReal) (d : EReal) (e : EReal) = qR 0 (a : EReal) (b : EReal) (c : EReal) (d : EReal) (e : EReal) := by
  have hA : 0 < a * a + b * b + e := by nlinarith [mul_self_nonneg a, mul_self_nonneg b]
  have hC : 0 < c * c + d * d + e := by nlinarith [mul_self_nonneg c, mul_self_nonneg d]
  have hA' : ¬ (0 + (a * a + b * b) + e < 0) := by simp only [zero_add]; exact not_lt.mpr hA.le
  have hC' : ¬ (0 + (c * c + d * d) + e < 0) := by simp only [zero_add]; exact not_lt.mpr hC.le
  have hsA : Real.sqrt (0 + (a * a + b * b) + e) ≠ 0 := by simp only [zero_add]; exact (Real.sqrt_pos.mpr hA).ne'
  have hsC : Real.sqrt (0 + (c * c + d * d) + e) ≠ 0 := by simp only [zero_add]; exact (Real.sqrt_pos.mpr hC).ne'
  have hden : (a * a + b * b + e) * (c * c + d * d + e) ≠ 0 := (mul_pos hA hC).ne'
  unfold qK qR
  rw [← EReal.coe_zero]
  simp only [← EReal.coe_mul, ← EReal.coe_add]
  rw [Ideal.sqrt_coe, Ideal.sqrt_coe, if_neg hA', if_neg hC']
  rw [Ideal.div_coe hden, Ideal.div_coe hsA, Ideal.div_coe hsA, Ideal.div_coe hsC, Ideal.div_coe hsC]
  simp only [← EReal.coe_mul, ← EReal.coe_add]
  exact congrArg _ (real_law a b c d e he)

end Cert.NGF

end
-- ==== Proof.KernelPayload.lean ====
import proofs.«170546_j40200893891260_2_alg».proof.Proof.Gen.KernelIdeal.Skeleton
import proofs.«170546_j40200893891260_2_alg».proof.Proof.Grad
import proofs.«170546_j40200893891260_2_alg».proof.Proof.PixelLaw
import Idealize.ShloMosaic.Lib.Pipeline.Value
import Idealize.ShloMosaic.PureOps.Ideal.Laws

/-! The kernel body's arithmetic, read index by index on the extended reals.

On a block of two images the body forms the four gradients, the single-quotient term `qK` at every pixel, sums the
terms over the whole block and adds the sum to what the one-element output block held. -/

noncomputable section

namespace Cert.KernelIdeal.NGFPayload

open Idealize.ShloMosaic Cert.KernelIdeal Cert.KernelIdeal.Gen Cert.NGF

/-- The regularizer both programs add to a squared norm. -/
abbrev eps : EReal := Ideal.ofBits .f32 0x2EDBE6FF#32

/-- The per-pixel term in its single-quotient form, from two image stacks. -/
def pixK {N : Nat} (x0 x1 : (Sh N).Idx → EReal) (j : (Sh N).Idx) : EReal :=
  qK (gH x0 j) (gW x0 j) (gH x1 j) (gW x1 j) eps

theorem pay3_apply (x : Vec Ideal S2x1x512x512 .f32) (j : S2x1x512x512.Idx) : k0_pay3 (F := Ideal) x j = gH (N := 2) x j := by
  unfold k0_pay3
  exact gradH_apply (N := 2) x _ _ _ _ _ _ _ j
theorem pay4_apply (x : Vec Ideal S2x1x512x512 .f32) (j : S2x1x512x512.Idx) : k0_pay4 (F := Ideal) x j = gW (N := 2) x j := by
  unfold k0_pay4
  exact gradW_apply (N := 2) x _ _ _ _ _ _ _ j
theorem pay5_apply (x : Vec Ideal S2x1x512x512 .f32) (j : S2x1x512x512.Idx) : k0_pay5 (F := Ideal) x j = gH (N := 2) x j := by
  unfold k0_pay5
  exact gradH_apply (N := 2) x _ _ _ _ _ _ _ j
theorem pay6_apply (x : Vec Ideal S2x1x512x512 .f32) (j : S2x1x512x512.Idx) : k0_pay6 (F := Ideal) x j = gW (N := 2) x j := by
  unfold k0_pay6
  exact gradW_apply (N := 2) x _ _ _ _ _ _ _ j

/-- The block reduction: a sum over every axis of the block (recast with a leading unit axis), read at its one index, is
    the sum of the block's entries. -/
theorem blockSum (v : FVec Ideal S2x1x512x512 .f32) (k : S1x1x1x1x1.Idx) :
    shapeCast S1x1x1x1x1 (multiReduction (F := Ideal) .add [1, 2, 3, 4] S1 (shapeCast S1x2x1x512x512 v shapeCasts_S2x1x512x512_S1x2x1x512x512)
      0x00000000#32 reduces_S1x2x1x512x512_S1 (.inl rfl) rfl) shapeCasts_S1_S1x1x1x1x1 k = ∑ y : S2x1x512x512.Idx, v y := by
  show multiReduction (F := Ideal) .add [1, 2, 3, 4] S1 (shapeCast S1x2x1x512x512 v shapeCasts_S2x1x512x512_S1x2x1x512x512)
      0x00000000#32 reduces_S1x2x1x512x512_S1 (.inl rfl) rfl (Shape.reshapeEquiv shapeCasts_S1_S1x1x1x1x1 k) = _
  refine (Ideal.multiReduction_add_total (shapeCast S1x2x1x512x512 v shapeCasts_S2x1x512x512_S1x2x1x512x512) 0x00000000#32
    reduces_S1x2x1x512x512_S1 (fun b => by fin_cases b; rfl) (.inl rfl) rfl _).trans ?_
  exact Equiv.sum_comp (Shape.reshapeEquiv shapeCasts_S2x1x512x512_S1x2x1x512x512) v

/-- The accumulation payload at its one index: what the output block held plus the sum over the block of the
    single-quotient terms of the body's six intermediate arrays. -/
theorem pay1_apply (v14 v24 v34 v44 v45 v46 : FVec Ideal S2x1x512x512 .f32) (v66 : Vec Ideal S1x1x1 .f32) (i : S1x1x1.Idx) :
    k0_pay1 (F := Ideal) v14 v24 v34 v44 v45 v46 v66 i
      = v66 i + ∑ y : S2x1x512x512.Idx, Ideal.div ((v14 y * v34 y + v24 y * v44 y) * (v14 y * v34 y + v24 y * v44 y))
          ((v45 y + v46 y + eps) * (v34 y * v34 y + v44 y * v44 y + eps)) := by
  unfold k0_pay1
  dsimp only
  rw [shapeCast_self]
  show v66 i + shapeCast S1x1x1x1x1 _ shapeCasts_S1_S1x1x1x1x1 _ = _
  rw [blockSum]
  rfl

/-- One step of the accumulation on two input blocks: the block's sum of per-pixel terms added to the running value. -/
theorem step_apply (x0 x1 : Vec Ideal S2x1x512x512 .f32) (xo : Vec Ideal S1x1x1 .f32) (i : S1x1x1.Idx) :
    k0_pay1 (F := Ideal) (k0_pay3 x0) (k0_pay4 x0) (k0_pay5 x1) (k0_pay6 x1) (k0_pay7 x0) (k0_pay8 x0) xo i
      = xo i + ∑ y : S2x1x512x512.Idx, pixK (N := 2) x0 x1 y := by
  rw [pay1_apply]
  refine congrArg (xo i + ·) (Finset.sum_congr rfl fun y _ => ?_)
  unfold k0_pay7 k0_pay8 pixK qK
  show Ideal.div _ ((k0_pay3 x0 y * k0_pay3 x0 y + k0_pay4 x0 y * k0_pay4 x0 y + eps) * _) = _
  rw [pay3_apply, pay4_apply, pay5_apply, pay6_apply]

/-- The block the first step of a core starts from is zero. -/
theorem pay2_apply (i : S1x1x1.Idx) : k0_pay2 (F := Ideal) i = 0 := by
  show Ideal.ofBits .f32 0x00000000#32 = 0
  exact Ideal.ofBits_zero_f32

end Cert.KernelIdeal.NGFPayload

end
-- ==== Proof.KernelChain.lean ====
import proofs.«170546_j40200893891260_2_alg».proof.Proof.KernelCases
import proofs.«170546_j40200893891260_2_alg».proof.Proof.KernelPayload

/-! The accumulation across the grid.

The 32 grid points are two runs of 16 steps, one per value of the first grid coordinate; the one-element output block of
a run starts at zero on its first step and gains the step's block sum each time. After step `b` of run `q` it therefore
holds the sum of the block sums of points `16 q` … `16 q + b`. -/

noncomputable section

open Idealize.ShloMosaic Idealize.ShloMosaic.TcCoe Idealize.SL.Sem
open Idealize.ShloMosaic.Pipeline (Dat)

namespace Cert.KernelIdeal.NGFChain

open Cert.KernelIdeal Cert.KernelIdeal.Gen Cert.NGF Cert.KernelIdeal.NGFPayload Cert.KernelIdeal.NGFCases

variable (m : (ℓ : Loc nD τ sig) → Buf (Elt Ideal) ℓ)

/-- The sum of the per-pixel terms over the block of the two inputs that grid point `n` works on (zero past the grid). -/
def P (c : Dev nD) (n : ℕ) : EReal :=
  if h : n < cfg0.N then
    ∑ y : S2x1x512x512.Idx, pixK (N := 2) (iblk m c 0 ⟨n, h⟩ : Vec Ideal S2x1x512x512 .f32) (iblk m c 1 ⟨n, h⟩ : Vec Ideal S2x1x512x512 .f32) y
  else 0

theorem P_eq (c : Dev nD) (n : ℕ) (h : n < cfg0.N) :
    P m c n = ∑ y : S2x1x512x512.Idx, pixK (N := 2) (iblk m c 0 ⟨n, h⟩ : Vec Ideal S2x1x512x512 .f32) (iblk m c 1 ⟨n, h⟩ : Vec Ideal S2x1x512x512 .f32) y :=
  dif_pos h

/-- What the output block holds after step `b` of run `q`: the block sums of the run's points so far. -/
theorem outsAt_eq (c : Dev nD) (q : ℕ) :
    ∀ (b : ℕ) (hb : b < 16) (h : 16 * q + b < cfg0.N),
      outsAt0 m c (16 * q + b) h = fun _ => ∑ k ∈ Finset.range (b + 1), P m c (16 * q + k)
  | 0, _, h => by
    have h0 : (⟨16 * q + 0, h⟩ : Fin cfg0.N).val % 16 = 0 := by show (16 * q + 0) % 16 = 0; omega
    refine (outsAt0_A m c ⟨16 * q + 0, h⟩ h0).trans ?_
    refine (out_A (F := Ideal) c _ _ _ _ _ _ _ _ _ _).trans ?_
    funext i
    refine (step_apply (iblk m c 0 ⟨16 * q + 0, h⟩) (iblk m c 1 ⟨16 * q + 0, h⟩) _ i).trans ?_
    rw [pay2_apply, zero_add, Finset.sum_range_one]
    exact (P_eq m c _ h).symm
  | b + 1, hb, h => by
    have hB : ¬(⟨16 * q + (b + 1), h⟩ : Fin cfg0.N).val % 16 = 0 := by show ¬(16 * q + (b + 1)) % 16 = 0; omega
    refine (outsAt0_B m c ⟨16 * q + (b + 1), h⟩ hB).trans ?_
    refine (out_B (F := Ideal) c _ _ _ _ _ _ _ _ _ _ _).trans ?_
    funext i
    refine (step_apply (iblk m c 0 ⟨16 * q + (b + 1), h⟩) (iblk m c 1 ⟨16 * q + (b + 1), h⟩) _ i).trans ?_
    show outsAt0 m c (16 * q + b) _ i + _ = _
    rw [outsAt_eq c q b (by omega) (by omega), Finset.sum_range_succ (fun k => P m c (16 * q + k)) (b + 1)]
    exact congrArg (_ + ·) (P_eq m c _ h).symm

end Cert.KernelIdeal.NGFChain

end
-- ==== Proof.Blocks.lean ====
import proofs.«170546_j40200893891260_2_alg».proof.Proof.Grad

/-! The stack of 64 images as 32 blocks of two.

Block `t` holds images `2t` and `2t + 1`. Moving an index one row or one column commutes with placing a block in the
stack, so a gradient of a block is the stack's gradient at the block's place; and a sum over the stack is the sum over
the blocks of the sums over each block. -/

noncomputable section

namespace Cert.NGF

open Idealize.ShloMosaic

/-- Entry `y` of block `t`, as an index of the stack. -/
def emb (t : Fin 32) (y : (Sh 2).Idx) : (Sh 64).Idx := fun a => match a with
  | ⟨0, _⟩ => ⟨2 * t.val + (y 0).val, by have ht := t.isLt; have h0 : (y 0).val < 2 := (y 0).isLt; show 2 * t.val + (y 0).val < 64; omega⟩
  | ⟨1, _⟩ => ⟨(y 1).val, (y 1).isLt⟩
  | ⟨2, _⟩ => ⟨(y 2).val, (y 2).isLt⟩
  | ⟨3, _⟩ => ⟨(y 3).val, (y 3).isLt⟩

theorem upH_emb (t : Fin 32) (y : (Sh 2).Idx) : upH (emb t y) = emb t (upH y) :=
  funext fun a => match a with
    | ⟨0, _⟩ => rfl
    | ⟨1, _⟩ => rfl
    | ⟨2, _⟩ => rfl
    | ⟨3, _⟩ => rfl
theorem dnH_emb (t : Fin 32) (y : (Sh 2).Idx) : dnH (emb t y) = emb t (dnH y) :=
  funext fun a => match a with
    | ⟨0, _⟩ => rfl
    | ⟨1, _⟩ => rfl
    | ⟨2, _⟩ => rfl
    | ⟨3, _⟩ => rfl
theorem upW_emb (t : Fin 32) (y : (Sh 2).Idx) : upW (emb t y) = emb t (upW y) :=
  funext fun a => match a with
    | ⟨0, _⟩ => rfl
    | ⟨1, _⟩ => rfl
    | ⟨2, _⟩ => rfl
    | ⟨3, _⟩ => rfl
theorem dnW_emb (t : Fin 32) (y : (Sh 2).Idx) : dnW (emb t y) = emb t (dnW y) :=
  funext fun a => match a with
    | ⟨0, _⟩ => rfl
    | ⟨1, _⟩ => rfl
    | ⟨2, _⟩ => rfl
    | ⟨3, _⟩ => rfl

/-- A block's gradients are the stack's, at the block's place. -/
theorem gH_emb (x : (Sh 64).Idx → EReal) (t : Fin 32) (y : (Sh 2).Idx) : gH (fun z => x (emb t z)) y = gH x (emb t y) := by
  show x (emb t (upH y)) - x (emb t (dnH y)) = x (upH (emb t y)) - x (dnH (emb t y))
  rw [upH_emb, dnH_emb]
theorem gW_emb (x : (Sh 64).Idx → EReal) (t : Fin 32) (y : (Sh 2).Idx) : gW (fun z => x (emb t z)) y = gW x (emb t y) := by
  show x (emb t (upW y)) - x (emb t (dnW y)) = x (upW (emb t y)) - x (dnW (emb t y))
  rw [upW_emb, dnW_emb]

/-- The stack's indices are the pairs (block, index in the block). -/
def blockEquiv : Fin 32 × (Sh 2).Idx ≃ (Sh 64).Idx where
  toFun p := emb p.1 p.2
  invFun i := (⟨(i 0).val / 2, by have h0 : (i 0).val < 64 := (i 0).isLt; omega⟩, fun a => match a with
    | ⟨0, _⟩ => ⟨(i 0).val % 2, by show (i 0).val % 2 < 2; omega⟩
    | ⟨1, _⟩ => ⟨(i 1).val, (i 1).isLt⟩
    | ⟨2, _⟩ => ⟨(i 2).val, (i 2).isLt⟩
    | ⟨3, _⟩ => ⟨(i 3).val, (i 3).isLt⟩)
  left_inv p := by
    obtain ⟨t, y⟩ := p
    have h0 : (y 0).val < 2 := (y 0).isLt
    refine Prod.ext (Fin.ext ?_) (funext fun a => ?_)
    · show (2 * t.val + (y 0).val) / 2 = t.val
      omega
    · match a with
      | ⟨0, _⟩ => exact Fin.ext (by show (2 * t.val + (y 0).val) % 2 = (y 0).val; omega)
      | ⟨1, _⟩ => rfl
      | ⟨2, _⟩ => rfl
      | ⟨3, _⟩ => rfl
  right_inv i := funext fun a => match a with
    | ⟨0, _⟩ => Fin.ext (by show 2 * ((i 0).val / 2) + (i 0).val % 2 = (i 0).val; omega)
    | ⟨1, _⟩ => rfl
    | ⟨2, _⟩ => rfl
    | ⟨3, _⟩ => rfl

/-- A sum over the stack, block by block. -/
theorem sum_blocks (f : (Sh 64).Idx → EReal) : ∑ i : (Sh 64).Idx, f i = ∑ t : Fin 32, ∑ y : (Sh 2).Idx, f (emb t y) := by
  rw [← Equiv.sum_comp blockEquiv f, Fintype.sum_prod_type]
  rfl

end Cert.NGF

end
-- ==== Proof.KernelFinal.lean ====
import proofs.«170546_j40200893891260_2_alg».proof.Proof.KernelChain
import proofs.«170546_j40200893891260_2_alg».proof.Proof.Blocks
import Idealize.ShloMosaic.Lib.Pipeline.Value
import Idealize.ShloMosaic.Lib.StableHlo.Run
import Idealize.ShloMosaic.Lib.Tactic

/-! The kernel's result.

The two-entry output array ends with entry `q` at the sum of the block sums of run `q`'s sixteen points, written back after
the run's last step. The host lines after the call add the two entries, divide by the pixel count and subtract from one.
Each point's input blocks are the two images `2t`, `2t + 1` of the argument stacks, so a point's block sum is the sum of
the stack's per-pixel terms over those two images. -/

noncomputable section

open Idealize.ShloMosaic Idealize.ShloMosaic.TcCoe Idealize.SL.Sem
open Idealize.ShloMosaic.Pipeline (Dat)

namespace Cert.KernelIdeal.NGFFinal

open Cert.KernelIdeal Cert.KernelIdeal.Gen Cert.NGF Cert.KernelIdeal.NGFPayload Cert.KernelIdeal.NGFCases Cert.KernelIdeal.NGFChain

variable (m : (ℓ : Loc nD τ sig) → Buf (Elt Ideal) ℓ) (ρ : Dev nD → PrngReg)

/-- The printed index maps over the grid: point `t` reads block `t` of each input and writes entry `t / 16` of the output. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val / 16 ∧ win0_2.index t (1 : Fin 3) = 0 ∧ win0_2.index t (2 : Fin 3) = 0 :=
  (by decide +kernel : ∀ t : Fin grid0.N, _)

/-- What the output array ends holding: entry `q` the sum of the block sums of points `16 q` … `16 q + 15`. -/
def Gout (c : Dev nD) : Buf (Elt Ideal) ((c : Thread nD τ).loc main_v0) :=
  fun (i : S2x1x1.Idx) => (∑ k ∈ Finset.range 16, P m c (16 * (i 0).val + k) : EReal)

/-- After the last step of a run the output block holds the run's sixteen block sums. -/
theorem outsAt_last (c : Dev nD) (n : ℕ) (hn : n < cfg0.N) (h15 : n % 16 = 15) :
    outsAt0 m c n hn = fun _ => ∑ k ∈ Finset.range 16, P m c (16 * (n / 16) + k) := by
  obtain ⟨q, rfl⟩ : ∃ q, n = 16 * q + 15 := ⟨n / 16, by omega⟩
  rw [outsAt_eq m c q 15 (by omega) hn, show (16 * q + 15) / 16 = q by omega]

/-- What a point that ends a run writes back is its entry of `Gout`. -/
theorem flushed_eq (c : Dev nD) (t : Fin cfg0.N) (hf : (cfg0.win 2).flush t = true) :
    (dats m 0 c).flushed 2 t = ((cfg0.win 2).blk t).view.read (Elt Ideal) (Gout m c) := by
  have h15 : t.val % 16 = 15 := (flush0_2 t).mp hf
  show (cfg0.win 2).cut (grid0.coords t) ((dats m 0 c).after 2 t) = _
  rw [after0_2, outsAt_last m c t.val t.isLt h15]
  funext y
  obtain ⟨-, -, -, -, -, -, -, -, e8, -, -⟩ := idx_facts t
  show (∑ k ∈ Finset.range 16, P m c (16 * (t.val / 16) + k)) = Gout m c (((cfg0.win 2).blk t).view.emb y)
  unfold Gout
  have e : ((((cfg0.win 2).blk t).view.emb y) 0).val = t.val / 16 := by
    show win0_2.index t (0 : Fin 3) * 1 + 1 * (y 0).val = _
    have hy : (y 0).val < 1 := (y 0).isLt
    omega
  show _ = ∑ k ∈ Finset.range 16, P m c (16 * ((((cfg0.win 2).blk t).view.emb y) 0).val + k)
  rw [e]

/-- An index of the output array is in point `t`'s block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- Every entry of the output array is written back by the point that ends its run. -/
theorem cover (i : S2x1x1.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  have hN : grid0.N = 32 := N_0
  have hlt : 16 * (i 0).val + 15 < cfg0.N := by show 16 * (i 0).val + 15 < grid0.N; omega
  refine ⟨⟨16 * (i 0).val + 15, hlt⟩, (flush0_2 _).mpr (by show (16 * (i 0).val + 15) % 16 = 15; omega), ?_⟩
  rw [mem_blk]
  obtain ⟨-, -, -, -, -, -, -, -, e8, e9, e10⟩ := idx_facts ⟨16 * (i 0).val + 15, hlt⟩
  have e8' : win0_2.index ⟨16 * (i 0).val + 15, hlt⟩ (0 : Fin 3) = (16 * (i 0).val + 15) / 16 := e8
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 1 ≤ (i 2).val ∧ (i 2).val < win0_2.index _ (2 : Fin 3) * 1 + 1; omega

/-- The output array after the run. -/
theorem final (c : Dev nD) : (dats m 0 c).arrAt 2 cfg0.N = Gout m c :=
  (dats m 0 c).arrAt_eq_of_cover 2 (Gout m c) (flushed_eq m c) cover

/-- Point `t`'s block of the first input is images `2t`, `2t + 1` of the first argument. -/
theorem iblk0_eq (c : Dev nD) (t : Fin cfg0.N) :
    (iblk m c 0 t : Vec Ideal S2x1x512x512 .f32)
      = fun y => m ((c : Thread nD τ).loc main_arg0) (emb ⟨t.val, lt_of_lt_of_eq t.isLt N_0⟩ y) := by
  obtain ⟨e0, e1, e2, e3, -⟩ := idx_facts t
  funext j
  unfold iblk
  show V m c main_arg0 (((cfg0.win 0).blk t).view.emb j) = m (c.tc.loc main_arg0) _
  unfold V
  congr 1
  funext a
  apply Fin.ext
  match a with
  | ⟨0, _⟩ => show win0_0.index t (0 : Fin 4) * 2 + 1 * (j 0).val = 2 * t.val + (j 0).val; omega
  | ⟨1, _⟩ => show win0_0.index t (1 : Fin 4) * 1 + 1 * (j 1).val = (j 1).val; omega
  | ⟨2, _⟩ => show win0_0.index t (2 : Fin 4) * 512 + 1 * (j 2).val = (j 2).val; omega
  | ⟨3, _⟩ => show win0_0.index t (3 : Fin 4) * 512 + 1 * (j 3).val = (j 3).val; omega
theorem iblk1_eq (c : Dev nD) (t : Fin cfg0.N) :
    (iblk m c 1 t : Vec Ideal S2x1x512x512 .f32)
      = fun y => m ((c : Thread nD τ).loc main_arg1) (emb ⟨t.val, lt_of_lt_of_eq t.isLt N_0⟩ y) := by
  obtain ⟨-, -, -, -, e0, e1, e2, e3, -⟩ := idx_facts t
  funext j
  unfold iblk
  show V m c main_arg1 (((cfg0.win 1).blk t).view.emb j) = m (c.tc.loc main_arg1) _
  unfold V
  congr 1
  funext a
  apply Fin.ext
  match a with
  | ⟨0, _⟩ => show win0_1.index t (0 : Fin 4) * 2 + 1 * (j 0).val = 2 * t.val + (j 0).val; omega
  | ⟨1, _⟩ => show win0_1.index t (1 : Fin 4) * 1 + 1 * (j 1).val = (j 1).val; omega
  | ⟨2, _⟩ => show win0_1.index t (2 : Fin 4) * 512 + 1 * (j 2).val = (j 2).val; omega
  | ⟨3, _⟩ => show win0_1.index t (3 : Fin 4) * 512 + 1 * (j 3).val = (j 3).val; omega

/-- A point's block sum is the sum of the stacks' per-pixel terms over the point's two images. -/
theorem P_stack (c : Dev nD) (t : Fin 32) :
    P m c t.val = ∑ y : (Sh 2).Idx, pixK (N := 64) (m ((c : Thread nD τ).loc main_arg0)) (m ((c : Thread nD τ).loc main_arg1)) (emb t y) := by
  have hN : t.val < cfg0.N := lt_of_lt_of_eq t.isLt N_0.symm
  rw [P_eq m c t.val hN, iblk0_eq m c ⟨t.val, hN⟩, iblk1_eq m c ⟨t.val, hN⟩]
  refine Finset.sum_congr rfl fun y _ => ?_
  unfold pixK
  rw [gH_emb, gW_emb, gH_emb, gW_emb]

end Cert.KernelIdeal.NGFFinal

end
-- ==== Proof.KernelTail.lean ====
import proofs.«170546_j40200893891260_2_alg».proof.Proof.KernelFinal

/-! The host lines after the call, and the kernel program's run read as a value.

After the call the program takes the output array's two entries, adds them, divides by the pixel count and subtracts
the quotient from one. With the output array at the two runs' sums, the result is one minus the quotient of the sum of
all 32 block sums. -/

noncomputable section

open Idealize.ShloMosaic Idealize.ShloMosaic.TcCoe Idealize.SL.Sem
open Idealize.ShloMosaic.Pipeline (Dat)

namespace Cert.KernelIdeal.NGFTail

open Cert.KernelIdeal Cert.KernelIdeal.Gen Cert.NGF Cert.KernelIdeal.NGFPayload Cert.KernelIdeal.NGFCases Cert.KernelIdeal.NGFChain Cert.KernelIdeal.NGFFinal

variable (m : (ℓ : Loc nD τ sig) → Buf (Elt Ideal) ℓ) (ρ : Dev nD → PrngReg)

/-- The kernel program's result: one minus the total of the two runs' sums over the pixel count. -/
def result (c : Dev nD) : EReal :=
  Ideal.ofBits .f32 0x3F800000#32
    - Ideal.div ((∑ k ∈ Finset.range 16, P m c (16 * 0 + k)) + (∑ k ∈ Finset.range 16, P m c (16 * 1 + k)))
        (Ideal.ofBits .f32 0x4B800000#32)

/-- The output array as a function on its indices. -/
def GoutR (c : Dev nD) : S2x1x1.Idx → EReal := fun i => ∑ k ∈ Finset.range 16, P m c (16 * (i 0).val + k)

/-- The one-entry slice of the output array at entry `q` is run `q`'s sum. -/
theorem slice_Gout (c : Dev nD) (q : Nat) (hs : S2x1x1.Slices ![q, 0, 0] S1x1x1) (j : S1x1x1.Idx) :
    extractStridedSlice S1x1x1 ![q, 0, 0] (GoutR m c) hs j = ∑ k ∈ Finset.range 16, P m c (16 * q + k) := by
  have hj : (j 0).val < 1 := (j 0).isLt
  show (∑ k ∈ Finset.range 16, P m c (16 * (q + (j 0).val) + k) : EReal) = _
  rw [show q + (j 0).val = q by omega]

/-- The host lines after the call, applied to the output array the region leaves. -/
theorem tail_eq (c : Dev nD) :
    Pipeline.afterTail₀ cfgs (dats m) 0 (V0 m) [hostOps1] c main_v7 = fun _ => result m c := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v0)
      = Gout m c := (Pipeline.withArrays_arr spec0 launch0.win.arr_inj c _ _ 2).trans (final m c)
  rw [hw]
  funext i
  show Ideal.ofBits .f32 0x3F800000#32
    - Ideal.div (extractStridedSlice S1x1x1 ![0, 0, 0] (GoutR m c) slices_S2x1x1_S1x1x1_0_0_0 _
        + extractStridedSlice S1x1x1 ![1, 0, 0] (GoutR m c) slices_S2x1x1_S1x1x1_1_0_0 _) (Ideal.ofBits .f32 0x4B800000#32) = _
  rw [slice_Gout, slice_Gout]
  rfl

/-- The kernel program's run: it terminates with its result at `result` and its arguments unchanged. -/
theorem run : θ_run defs (onTc (τ := τ) (main (F := Ideal))) ⟨m, fun _ => 0, ρ⟩ fun r => ∀ c : Dev nD,
      r.2.mem ((c.tc : Thread nD τ).loc main_v7) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.NGFTail

end
-- ==== Proof.RefValue.lean ====
import proofs.«170546_j40200893891260_2_alg».proof.Proof.Gen.ReferenceIdeal.Read
import proofs.«170546_j40200893891260_2_alg».proof.Proof.Grad
import proofs.«170546_j40200893891260_2_alg».proof.Proof.PixelLaw
import Idealize.ShloMosaic.Lib.Pipeline.Value
import Idealize.ShloMosaic.PureOps.Ideal.Laws

/-! The reference, read index by index on the extended reals.

At every pixel the reference stacks the two gradients of an image into a vector of two, divides it by the square root of
its regularized squared norm, takes the dot product of the two images' vectors and squares it: the normalized form
`qR`. Its result is one minus the sum of these terms over the whole stack divided by the number of pixels. -/

noncomputable section

namespace Cert.ReferenceIdeal.NGFRef

open Idealize.ShloMosaic Cert.ReferenceIdeal Cert.ReferenceIdeal.Read Cert.NGF

abbrev X := (⟨S64x1x512x512, .f32⟩ : BufTy).Contents (Elt Ideal)

/-- The regularizer. -/
abbrev eps : EReal := Ideal.ofBits .f32 0x2EDBE6FF#32

/-- The last two operations of either program, on the total `s`: one minus `s` over the pixel count. -/
def tail (s : EReal) : EReal := Ideal.ofBits .f32 0x3F800000#32 - Ideal.div s (Ideal.ofBits .f32 0x4B800000#32)

/-- The per-pixel term in its normalized form, from two image stacks. -/
def pixR (x0 x1 : (Sh 64).Idx → EReal) (j : (Sh 64).Idx) : EReal :=
  qR 0 (gH x0 j) (gW x0 j) (gH x1 j) (gW x1 j) eps

theorem v9_apply (x0 : X) (i : S64x1x512x512.Idx) : val_main_v9 (F := Ideal) x0 i = gH (N := 64) x0 i := by
  unfold val_main_v9 val_main_v2 val_main_v5 val_main_v8 val_main_v0 val_main_v1 val_main_v3 val_main_v4 val_main_v6 val_main_v7
  exact gradH_apply (N := 64) x0 _ _ _ _ _ _ _ i
theorem v19_apply (x0 : X) (i : S64x1x512x512.Idx) : val_main_v19 (F := Ideal) x0 i = gW (N := 64) x0 i := by
  unfold val_main_v19 val_main_v12 val_main_v15 val_main_v18 val_main_v10 val_main_v11 val_main_v13 val_main_v14 val_main_v16 val_main_v17
  exact gradW_apply (N := 64) x0 _ _ _ _ _ _ _ i
theorem v40_apply (x1 : X) (i : S64x1x512x512.Idx) : val_main_v40 (F := Ideal) x1 i = gH (N := 64) x1 i := by
  unfold val_main_v40 val_main_v33 val_main_v36 val_main_v39 val_main_v31 val_main_v32 val_main_v34 val_main_v35 val_main_v37 val_main_v38
  exact gradH_apply (N := 64) x1 _ _ _ _ _ _ _ i
theorem v50_apply (x1 : X) (i : S64x1x512x512.Idx) : val_main_v50 (F := Ideal) x1 i = gW (N := 64) x1 i := by
  unfold val_main_v50 val_main_v43 val_main_v46 val_main_v49 val_main_v41 val_main_v42 val_main_v44 val_main_v45 val_main_v47 val_main_v48
  exact gradW_apply (N := 64) x1 _ _ _ _ _ _ _ i

/-- Two indices of the stack with the same image, row and column are the same index: the channel axis has one entry. -/
theorem idx_eq (j i : S64x1x512x512.Idx) (h0 : (j 0).val = (i 0).val) (h2 : (j 2).val = (i 2).val) (h3 : (j 3).val = (i 3).val) :
    j = i :=
  funext fun a => match a with
    | ⟨0, _⟩ => Fin.ext h0
    | ⟨1, _⟩ => Fin.ext (by show (j 1).val = (i 1).val; have a1 : (j 1).val < 1 := (j 1).isLt; have b1 : (i 1).val < 1 := (i 1).isLt; omega)
    | ⟨2, _⟩ => Fin.ext h2
    | ⟨3, _⟩ => Fin.ext h3

/-- The pixel's place among the stacked vectors' first (or only) entries. -/
def lift1 (j : S64x1x512x512x2.Idx) : S64x1x512x512x1.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => ⟨0, Nat.one_pos⟩

section stack
variable {α : Type}

/-- Two arrays stacked along a new last axis, read at entry 0 and at entry 1. -/
theorem stack_apply0 (p q : S64x1x512x512x1.Idx → α)
    (hc : Shape.Concatenates [S64x1x512x512x1, S64x1x512x512x1] S64x1x512x512x2 4) (j : S64x1x512x512x2.Idx) (h4 : (j 4).val = 0) :
    concatenate S64x1x512x512x2 4 [⟨S64x1x512x512x1, p⟩, ⟨S64x1x512x512x1, q⟩] hc j = p (lift1 j) :=
  concatenate_pair_apply_left (t := S64x1x512x512x2) 4 p q hc j rfl (lift1 j) (fun b => match b with
    | ⟨0, _⟩ => rfl
    | ⟨1, _⟩ => rfl
    | ⟨2, _⟩ => rfl
    | ⟨3, _⟩ => rfl
    | ⟨4, _⟩ => h4.symm)
theorem stack_apply1 (p q : S64x1x512x512x1.Idx → α)
    (hc : Shape.Concatenates [S64x1x512x512x1, S64x1x512x512x1] S64x1x512x512x2 4) (j : S64x1x512x512x2.Idx) (h4 : (j 4).val = 1) :
    concatenate S64x1x512x512x2 4 [⟨S64x1x512x512x1, p⟩, ⟨S64x1x512x512x1, q⟩] hc j = q (lift1 j) :=
  concatenate_pair_apply_right (t := S64x1x512x512x2) 4 p q hc j rfl rfl (lift1 j) (fun b hb => match b with
    | ⟨0, _⟩ => rfl
    | ⟨1, _⟩ => rfl
    | ⟨2, _⟩ => rfl
    | ⟨3, _⟩ => rfl
    | ⟨4, _⟩ => absurd rfl hb)
    (by show 0 + 1 = (j 4).val; omega)

end stack

variable (x0 x1 : X)

/-- The first image's stacked gradient vector at a pixel. -/
theorem v22_apply0 (j : S64x1x512x512x2.Idx) (i : S64x1x512x512.Idx) (h0 : (j 0).val = (i 0).val) (h2 : (j 2).val = (i 2).val)
    (h3 : (j 3).val = (i 3).val) (h4 : (j 4).val = 0) : val_main_v22 (F := Ideal) x0 j = gH (N := 64) x0 i := by
  unfold val_main_v22
  rw [stack_apply0 _ _ _ j h4, val_main_v20_apply, v9_apply, idx_eq (idx_main_v20 (lift1 j)) i h0 h2 h3]
theorem v22_apply1 (j : S64x1x512x512x2.Idx) (i : S64x1x512x512.Idx) (h0 : (j 0).val = (i 0).val) (h2 : (j 2).val = (i 2).val)
    (h3 : (j 3).val = (i 3).val) (h4 : (j 4).val = 1) : val_main_v22 (F := Ideal) x0 j = gW (N := 64) x0 i := by
  unfold val_main_v22
  rw [stack_apply1 _ _ _ j h4, val_main_v21_apply, v19_apply, idx_eq (idx_main_v21 (lift1 j)) i h0 h2 h3]
/-- The second image's. -/
theorem v53_apply0 (j : S64x1x512x512x2.Idx) (i : S64x1x512x512.Idx) (h0 : (j 0).val = (i 0).val) (h2 : (j 2).val = (i 2).val)
    (h3 : (j 3).val = (i 3).val) (h4 : (j 4).val = 0) : val_main_v53 (F := Ideal) x1 j = gH (N := 64) x1 i := by
  unfold val_main_v53
  rw [stack_apply0 _ _ _ j h4, val_main_v51_apply, v40_apply, idx_eq (idx_main_v51 (lift1 j)) i h0 h2 h3]
theorem v53_apply1 (j : S64x1x512x512x2.Idx) (i : S64x1x512x512.Idx) (h0 : (j 0).val = (i 0).val) (h2 : (j 2).val = (i 2).val)
    (h3 : (j 3).val = (i 3).val) (h4 : (j 4).val = 1) : val_main_v53 (F := Ideal) x1 j = gW (N := 64) x1 i := by
  unfold val_main_v53
  rw [stack_apply1 _ _ _ j h4, val_main_v52_apply, v50_apply, idx_eq (idx_main_v52 (lift1 j)) i h0 h2 h3]

/-- The squared norm of the first image's gradient vector at a pixel, summed from zero. -/
theorem v24_apply (i : S64x1x512x512.Idx) :
    val_main_v24 (F := Ideal) x0 i = 0 + (gH (N := 64) x0 i * gH (N := 64) x0 i + gW (N := 64) x0 i * gW (N := 64) x0 i) := by
  rw [val_main_v24_apply, Fin.sum_univ_two, val_main_v23_apply, val_main_v23_apply,
    v22_apply0 x0 _ i rfl rfl rfl rfl, v22_apply1 x0 _ i rfl rfl rfl rfl]
  show Ideal.ofBits .f32 0x00000000#32 + _ = _
  rw [Ideal.ofBits_zero_f32]
  rfl
theorem v55_apply (i : S64x1x512x512.Idx) :
    val_main_v55 (F := Ideal) x1 i = 0 + (gH (N := 64) x1 i * gH (N := 64) x1 i + gW (N := 64) x1 i * gW (N := 64) x1 i) := by
  rw [val_main_v55_apply, Fin.sum_univ_two, val_main_v54_apply, val_main_v54_apply,
    v53_apply0 x1 _ i rfl rfl rfl rfl, v53_apply1 x1 _ i rfl rfl rfl rfl]
  show Ideal.ofBits .f32 0x00000000#32 + _ = _
  rw [Ideal.ofBits_zero_f32]
  rfl

/-- The regularized norm each entry of the first image's vector is divided by. -/
theorem v29_apply (j : S64x1x512x512x2.Idx) (i : S64x1x512x512.Idx) (h0 : (j 0).val = (i 0).val) (h2 : (j 2).val = (i 2).val)
    (h3 : (j 3).val = (i 3).val) :
    val_main_v29 (F := Ideal) x0 j
      = Ideal.sqrt (0 + (gH (N := 64) x0 i * gH (N := 64) x0 i + gW (N := 64) x0 i * gW (N := 64) x0 i) + eps) := by
  rw [val_main_v29_apply, val_main_v28_apply, val_main_v27_apply, val_main_v25_apply, val_main_v26_apply, val_main_cst_0_apply,
    idx_eq (idx_main_v25 (idx_main_v29 j)) i h0 h2 h3, v24_apply]
  rfl
theorem v60_apply (j : S64x1x512x512x2.Idx) (i : S64x1x512x512.Idx) (h0 : (j 0).val = (i 0).val) (h2 : (j 2).val = (i 2).val)
    (h3 : (j 3).val = (i 3).val) :
    val_main_v60 (F := Ideal) x1 j
      = Ideal.sqrt (0 + (gH (N := 64) x1 i * gH (N := 64) x1 i + gW (N := 64) x1 i * gW (N := 64) x1 i) + eps) := by
  rw [val_main_v60_apply, val_main_v59_apply, val_main_v58_apply, val_main_v56_apply, val_main_v57_apply, val_main_cst_2_apply,
    idx_eq (idx_main_v56 (idx_main_v60 j)) i h0 h2 h3, v55_apply]
  rfl

/-- The squared dot product of the two normalized vectors at a pixel: the normalized form of the per-pixel term. -/
theorem v64_apply (i : S64x1x512x512.Idx) : val_main_v64 (F := Ideal) x0 x1 i = pixR x0 x1 i := by
  rw [val_main_v64_apply, val_main_v63_apply, Fin.sum_univ_two, val_main_v62_apply, val_main_v62_apply,
    val_main_v30_apply, val_main_v30_apply, val_main_v61_apply, val_main_v61_apply,
    v22_apply0 x0 _ i rfl rfl rfl rfl, v22_apply1 x0 _ i rfl rfl rfl rfl,
    v53_apply0 x1 _ i rfl rfl rfl rfl, v53_apply1 x1 _ i rfl rfl rfl rfl,
    v29_apply x0 _ i rfl rfl rfl, v29_apply x0 _ i rfl rfl rfl, v60_apply x1 _ i rfl rfl rfl, v60_apply x1 _ i rfl rfl rfl]
  show (Ideal.ofBits .f32 0x00000000#32 + _) * (Ideal.ofBits .f32 0x00000000#32 + _) = _
  rw [Ideal.ofBits_zero_f32]
  rfl

/-- The reference's result: one minus the total of the normalized terms (summed from zero) over the pixel count. -/
theorem result_apply (i : S_.Idx) :
    val_main_v67 (F := Ideal) x0 x1 i = tail (0 + ∑ j : S64x1x512x512.Idx, pixR x0 x1 j) := by
  rw [val_main_v67_apply, val_main_v66_apply, val_main_v65_apply]
  simp only [v64_apply]
  show Ideal.ofBits .f32 0x3F800000#32 - Ideal.div (Ideal.ofBits .f32 0x00000000#32 + _) (Ideal.ofBits .f32 0x4B800000#32) = _
  rw [Ideal.ofBits_zero_f32]
  rfl

end Cert.ReferenceIdeal.NGFRef

end
-- ==== Proof.Finite.lean ====
import proofs.«170546_j40200893891260_2_alg».proof.Pre_finite_inputs
import Idealize.ShloMosaic.Lib.ReduceAll
import Idealize.ShloMosaic.PureOps.Ideal.Laws

/-! What the precondition says: every entry of both image stacks is a real number.

The precondition is the conjunction of two `all`s of `|x| < +inf`, entry by entry; an extended real whose absolute value
is below `+inf` is neither infinity. The regularizer's bit pattern denotes a positive real. -/

noncomputable section

namespace Cert.Pre_finite_inputs.NGFFinite

open Idealize.ShloMosaic Cert.Pre_finite_inputs

variable [Facts]
open Facts

instance : Subsingleton S_.Idx := ⟨fun a b => funext fun d => d.elim0⟩

theorem inf_pattern : Ideal.ofBits .f32 0x7F800000#32 = ⊤ := by simp [Ideal.ofBits, Ideal.ieee]

/-- An extended real whose absolute value is below `+inf` is a real. -/
theorem elt_finite (x : EReal) (h : Ideal.cmp .olt (max x (-x)) (Ideal.ofBits .f32 0x7F800000#32) = 1#1) : ∃ r : ℝ, x = r := by
  rw [inf_pattern] at h
  have hlt : max x (-x) < ⊤ := by
    by_contra hn
    simp [Ideal.cmp, hn] at h
  induction x using EReal.rec with
  | bot => simp at hlt
  | top => simp at hlt
  | coe r => exact ⟨r, rfl⟩

/-- Under the precondition every entry of both arguments is a real. -/
theorem finite_of_pre (x0 x1 : FVec Ideal S64x1x512x512 .f32) (h : fn (F := Ideal) x0 x1 = fun _ => 1#1) :
    (∀ i, ∃ r : ℝ, x0 i = r) ∧ (∀ i, ∃ r : ℝ, x1 i = r) := by
  have h0 := congrFun h (fun a => a.elim0)
  dsimp only [fn] at h0
  obtain ⟨ha, hb⟩ := IntOp.andi_eq_one.1 h0
  exact ⟨fun i => elt_finite (x0 i) (Host.reduce_andi_all _ _ _ _ _ ha i),
    fun i => elt_finite (x1 i) (Host.reduce_andi_all _ _ _ _ _ hb i)⟩

/-- The regularizer is a positive real. -/
theorem eps_pos : ∃ e : ℝ, 0 < e ∧ Ideal.ofBits .f32 0x2EDBE6FF#32 = (e : EReal) :=
  ⟨14411519 * (2 : ℝ) ^ (-57 : ℤ), by positivity, by simp [Ideal.ofBits, Ideal.ieee, -EReal.coe_mul]⟩

end Cert.Pre_finite_inputs.NGFFinite

end
-- ==== Proof.Bridge.lean ====
import proofs.«170546_j40200893891260_2_alg».proof.Proof.KernelTail
import proofs.«170546_j40200893891260_2_alg».proof.Proof.RefValue
import proofs.«170546_j40200893891260_2_alg».proof.Proof.Finite
import proofs.«170546_j40200893891260_2_alg».proof.Proof.Gen.Pre_finite_inputs

/-! The two totals are one number.

At real entries the normalized per-pixel term is the single-quotient one (the per-pixel identity). The reference sums the
terms over the whole stack; the kernel sums them image pair by image pair, sixteen pairs per run, and adds the two
runs: the same finite sum regrouped, which needs only that addition of extended reals is commutative and associative. -/

noncomputable section

namespace Cert.NGF.Bridge

open Idealize.ShloMosaic Idealize.ShloMosaic.TcCoe Idealize.SL.Sem Cert.NGF

/-- At real entries, pixel by pixel, the normalized form is the single-quotient form. -/
theorem pix_eq (x0 x1 : (Sh 64).Idx → EReal) (h0 : ∀ i, ∃ r : ℝ, x0 i = r) (h1 : ∀ i, ∃ r : ℝ, x1 i = r) (j : (Sh 64).Idx) :
    Cert.ReferenceIdeal.NGFRef.pixR x0 x1 j = Cert.KernelIdeal.NGFPayload.pixK (N := 64) x0 x1 j := by
  obtain ⟨e, he, hee⟩ := Cert.Pre_finite_inputs.NGFFinite.eps_pos
  obtain ⟨a1, ha1⟩ := h0 (upH j)
  obtain ⟨a2, ha2⟩ := h0 (dnH j)
  obtain ⟨b1, hb1⟩ := h0 (upW j)
  obtain ⟨b2, hb2⟩ := h0 (dnW j)
  obtain ⟨c1, hc1⟩ := h1 (upH j)
  obtain ⟨c2, hc2⟩ := h1 (dnH j)
  obtain ⟨d1, hd1⟩ := h1 (upW j)
  obtain ⟨d2, hd2⟩ := h1 (dnW j)
  show qR 0 (x0 (upH j) - x0 (dnH j)) (x0 (upW j) - x0 (dnW j)) (x1 (upH j) - x1 (dnH j)) (x1 (upW j) - x1 (dnW j))
      (Ideal.ofBits .f32 0x2EDBE6FF#32)
    = qK (x0 (upH j) - x0 (dnH j)) (x0 (upW j) - x0 (dnW j)) (x1 (upH j) - x1 (dnH j)) (x1 (upW j) - x1 (dnW j))
      (Ideal.ofBits .f32 0x2EDBE6FF#32)
  rw [ha1, ha2, hb1, hb2, hc1, hc2, hd1, hd2, hee]
  simp only [← EReal.coe_sub]
  exact (qK_eq_qR _ _ _ _ e he).symm

open Cert.KernelIdeal in
/-- The reference's total, summed from zero over the stack, is the kernel's two runs' sums added. -/
theorem total_eq (m : (ℓ : Loc nD τ sig) → Buf (Elt Ideal) ℓ) (c : Dev nD) (x0 x1 : (Sh 64).Idx → EReal)
    (e0 : x0 = m ((c.tc : Thread nD τ).loc main_arg0)) (e1 : x1 = m ((c.tc : Thread nD τ).loc main_arg1))
    (h0 : ∀ i, ∃ r : ℝ, x0 i = r) (h1 : ∀ i, ∃ r : ℝ, x1 i = r) :
    (0 : EReal) + ∑ j : (Sh 64).Idx, Cert.ReferenceIdeal.NGFRef.pixR x0 x1 j
      = (∑ k ∈ Finset.range 16, NGFChain.P m c (16 * 0 + k)) + (∑ k ∈ Finset.range 16, NGFChain.P m c (16 * 1 + k)) := by
  subst e0
  subst e1
  rw [zero_add, Finset.sum_congr rfl (fun j _ => pix_eq _ _ h0 h1 j), sum_blocks,
    Finset.sum_congr rfl (fun t _ => (NGFFinal.P_stack m c t).symm),
    ← Finset.sum_range (fun k => NGFChain.P m c k), show (32 : ℕ) = 16 + 16 from rfl, Finset.sum_range_add]
  simp only [Nat.mul_zero, Nat.zero_add, Nat.mul_one]

end Cert.NGF.Bridge

end
-- ==== Proof.lean ====
/- The proof of `Cert.Claim`.

   The kernel computes, per pixel, the squared cosine between the finite-difference gradients of two images with ONE
   quotient, `(g₀·g₁)² / ((|g₀|² + ε)(|g₁|² + ε))`, sums the terms block by block over a 2 × 16 grid into a two-entry array,
   and on the host adds the two entries, divides by the pixel count and subtracts from one. The reference normalizes each
   gradient vector by `√(|g|² + ε)`, squares the dot product of the two unit-ish vectors, and takes one minus the mean.

   * Both programs build the gradients by the same three-piece concatenation; read at an index each is one difference
     (Proof/Grad.lean), and a block's gradient is the stack's at the block's place (Proof/Blocks.lean).
   * Under the precondition every entry is real (Proof/Finite.lean), the regularizer is a positive real, so both norms are
     positive and the two per-pixel forms agree (Proof/PixelLaw.lean): `√s · √s = s` for `s > 0`.
   * The kernel's output block accumulates block sums along each run of sixteen grid steps (Proof/KernelCases.lean,
     Proof/KernelPayload.lean, Proof/KernelChain.lean); the array and the host lines after the call are read in
     Proof/KernelFinal.lean and Proof/KernelTail.lean; the reference is read in Proof/RefValue.lean.
   * The two totals are the same finite sum regrouped (Proof/Bridge.lean); both programs end with the same two host
     operations on the total. -/
import proofs.«170546_j40200893891260_2_alg».proof.Defs
import proofs.«170546_j40200893891260_2_alg».proof.Proof.Gen.Kernel
import proofs.«170546_j40200893891260_2_alg».proof.Proof.Gen.Kernel.Skeleton
import proofs.«170546_j40200893891260_2_alg».proof.Proof.Gen.Kernel.Launch
import proofs.«170546_j40200893891260_2_alg».proof.Proof.Gen.Kernel.Points
import proofs.«170546_j40200893891260_2_alg».proof.Proof.Gen.Kernel.Frame
import proofs.«170546_j40200893891260_2_alg».proof.Proof.Gen.KernelIdeal
import proofs.«170546_j40200893891260_2_alg».proof.Proof.Gen.KernelIdeal.Skeleton
import proofs.«170546_j40200893891260_2_alg».proof.Proof.Gen.KernelIdeal.Launch
import proofs.«170546_j40200893891260_2_alg».proof.Proof.Gen.KernelIdeal.Points
import proofs.«170546_j40200893891260_2_alg».proof.Proof.Gen.KernelIdeal.Frame
import proofs.«170546_j40200893891260_2_alg».proof.Proof.Gen.ReferenceIdeal
import proofs.«170546_j40200893891260_2_alg».proof.Proof.Gen.Pre_finite_inputs
import proofs.«170546_j40200893891260_2_alg».proof.Proof.Gen.ReferenceIdeal.Run
import proofs.«170546_j40200893891260_2_alg».proof.Proof.Gen.ReferenceIdeal.Read
import proofs.«170546_j40200893891260_2_alg».proof.Proof.Bridge
import Idealize.ShloMosaic.Adequacy
import Idealize.ShloMosaic.Init

noncomputable section

namespace Cert.Proof

open Idealize.ShloMosaic Idealize.SL.Sem

/-- The word-level kernel and its idealization run, fault-free, with their arguments unchanged. -/
theorem frame_k : Cert.frame_Kernel := fun m ρ _ => Cert.Kernel.Gen.frame m ρ
theorem frame_ki : Cert.frame_KernelIdeal := fun m ρ _ => Cert.KernelIdeal.Gen.frame m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At real inputs the kernel's result and the reference's are the same extended real: one minus the same total over the
    same pixel count. -/
theorem algebraic : Cert.algebraic_KernelIdeal_ReferenceIdeal := by
  intro m ρ m' ρ' hpre hagree
  refine ⟨fun c => (fun _ => Cert.KernelIdeal.NGFTail.result m c), Cert.KernelIdeal.NGFTail.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1⟩ := Cert.Pre_finite_inputs.NGFFinite.finite_of_pre _ _ (hpre c)
  rw [Cert.ReferenceIdeal.Read.val_main_v67_eq, (hagree c).1, (hagree c).2]
  funext i
  rw [Cert.ReferenceIdeal.NGFRef.result_apply]
  unfold Cert.ReferenceIdeal.NGFRef.tail Cert.KernelIdeal.NGFTail.result
  exact congrArg (fun s => Ideal.ofBits .f32 0x3F800000#32 - Ideal.div s (Ideal.ofBits .f32 0x4B800000#32))
    (Cert.NGF.Bridge.total_eq m c _ _ rfl rfl f0 f1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
